-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x32x32 : Shape := ⟨4, ![16, 32, 32, 32]⟩
abbrev S32x32x9 : Shape := ⟨3, ![32, 32, 9]⟩
abbrev S_ : Shape := ⟨0, ![]⟩

class Facts : Prop where
  bcast_S_S16x32x32x32 : S_.BroadcastsInDim S16x32x32x32 (![] : Fin 0 → Fin S16x32x32x32.rank)
  reducesTo_S16x32x32x32_S_d0_1_2_3 : S16x32x32x32.ReducesTo [0, 1, 2, 3] S_
  h_S_ : 0 < S_.numel
  bcast_S_S32x32x9 : S_.BroadcastsInDim S32x32x9 (![] : Fin 0 → Fin S32x32x9.rank)
  reducesTo_S32x32x9_S_d0_1_2 : S32x32x9.ReducesTo [0, 1, 2] S_

variable [Facts]

def fn {F : FTy → Type} [FloatOps F] (main_arg0 : FVec F S16x32x32x32 .f32) (main_arg1 : FVec F S32x32x9 .f32) : IVec S_ 1 :=
  let main_v0 : FVec F S16x32x32x32 .f32 := Host.absf main_arg0
  let main_cst : FVec F S_ .f32 := constant S_ .f32 0x7F800000#32
  let main_v1 : FVec F S16x32x32x32 .f32 := broadcastInDim S16x32x32x32 ![] bcast_S_S16x32x32x32 main_cst
  let main_v2 : IVec S16x32x32x32 1 := cmpf .olt main_v0 main_v1
  let main_c : IVec S_ 1 := constantI S_ 1 1#1
  let main_v3 : IVec S_ 1 := (fun x v => Host.reduce IntOp.andi x v reducesTo_S16x32x32x32_S_d0_1_2_3 h_S_) main_v2 main_c
  let main_v4 : FVec F S32x32x9 .f32 := Host.absf main_arg1
  let main_cst_0 : FVec F S_ .f32 := constant S_ .f32 0x7F800000#32
  let main_v5 : FVec F S32x32x9 .f32 := broadcastInDim S32x32x9 ![] bcast_S_S32x32x9 main_cst_0
  let main_v6 : IVec S32x32x9 1 := cmpf .olt main_v4 main_v5
  let main_c_1 : IVec S_ 1 := constantI S_ 1 1#1
  let main_v7 : IVec S_ 1 := (fun x v => Host.reduce IntOp.andi x v reducesTo_S32x32x9_S_d0_1_2 h_S_) main_v6 main_c_1
  let main_v8 : IVec S_ 1 := andi main_v3 main_v7
  main_v8
-- ==== Kernel.lean ====
abbrev S16x32x32x32 : Shape := ⟨4, ![16, 32, 32, 32]⟩
abbrev S32x32x9 : Shape := ⟨3, ![32, 32, 9]⟩
abbrev S_ : Shape := ⟨0, ![]⟩
abbrev S16x32x34x34 : Shape := ⟨4, ![16, 32, 34, 34]⟩
abbrev S16x1024x32x32 : Shape := ⟨4, ![16, 1024, 32, 32]⟩
abbrev S1x32x34x34 : Shape := ⟨4, ![1, 32, 34, 34]⟩
abbrev S1x1024x32x32 : Shape := ⟨4, ![1, 1024, 32, 32]⟩
abbrev S1x32x32x32 : Shape := ⟨4, ![1, 32, 32, 32]⟩
abbrev S32x32x32 : Shape := ⟨3, ![32, 32, 32]⟩
abbrev S32x32x1 : Shape := ⟨3, ![32, 32, 1]⟩
abbrev S32x32 : Shape := ⟨2, ![32, 32]⟩
abbrev S32x32x1x1 : Shape := ⟨4, ![32, 32, 1, 1]⟩
abbrev S32x32x32x32 : Shape := ⟨4, ![32, 32, 32, 32]⟩
abbrev S1024x32x32 : Shape := ⟨3, ![1024, 32, 32]⟩

abbrev nBuf : Space → Nat
  | .hbm => 6
  | .vmem => 5
  | .smem => 0
  | _ => 0

abbrev bufTy : (tb : Table) → Fin (tcTables nBuf tb) → BufTy
  | .hbm, ⟨0, _⟩ => ⟨S16x32x32x32, .f32⟩
  | .hbm, ⟨1, _⟩ => ⟨S32x32x9, .f32⟩
  | .hbm, ⟨2, _⟩ => ⟨S_, .i32⟩
  | .hbm, ⟨3, _⟩ => ⟨S_, .f32⟩
  | .hbm, ⟨4, _⟩ => ⟨S16x32x34x34, .f32⟩
  | .hbm, ⟨5, _⟩ => ⟨S16x1024x32x32, .f32⟩
  | .local _ .vmem, ⟨0, _⟩ => ⟨S1x32x34x34, .f32⟩
  | .local _ .vmem, ⟨1, _⟩ => ⟨S1x32x34x34, .f32⟩
  | .local _ .vmem, ⟨2, _⟩ => ⟨S32x32x9, .f32⟩
  | .local _ .vmem, ⟨3, _⟩ => ⟨S1x1024x32x32, .f32⟩
  | .local _ .vmem, ⟨4, _⟩ => ⟨S1x1024x32x32, .f32⟩
  | _, _ => ⟨S16x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x34x34 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S16x32x32x32_S16x32x34x34_000_000_110_110 : S16x32x32x32.Pads (![0, 0, 1, 1] : Fin 4 → Nat) ![0, 0, 1, 1] ![0, 0, 0, 0] S16x32x34x34
  h_S_ : 0 < S_.numel
  inb_S1x32x34x34_S1x32x32x32_0_0_2_2 : ∀ a, (![0, 0, 2, 2] : Fin 4 → Nat) a + S1x32x32x32.size a ≤ S1x32x34x34.size a
  h_S1x32x32x32 : 0 < S1x32x32x32.numel
  shapeCasts_S1x32x32x32_S32x32x32 : S1x32x32x32.ShapeCasts S32x32x32
  inb_S32x32x9_S32x32x1_0_0_0 : ∀ a, (![0, 0, 0] : Fin 3 → Nat) a + S32x32x1.size a ≤ S32x32x9.size a
  h_S32x32x1 : 0 < S32x32x1.numel
  shapeCasts_S32x32x1_S32x32 : S32x32x1.ShapeCasts S32x32
  shapeCasts_S32x32x32_S1x32x32x32 : S32x32x32.ShapeCasts S1x32x32x32
  shapeCasts_S32x32_S32x32x1x1 : S32x32.ShapeCasts S32x32x1x1
  broadcasts_S1x32x32x32_S32x32x32x32 : S1x32x32x32.Broadcasts S32x32x32x32
  broadcasts_S32x32x1x1_S32x32x32x32 : S32x32x1x1.Broadcasts S32x32x32x32
  inb_S1x32x34x34_S1x32x32x32_0_0_2_1 : ∀ a, (![0, 0, 2, 1] : Fin 4 → Nat) a + S1x32x32x32.size a ≤ S1x32x34x34.size a
  inb_S32x32x9_S32x32x1_0_0_1 : ∀ a, (![0, 0, 1] : Fin 3 → Nat) a + S32x32x1.size a ≤ S32x32x9.size a
  inb_S1x32x34x34_S1x32x32x32_0_0_2_0 : ∀ a, (![0, 0, 2, 0] : Fin 4 → Nat) a + S1x32x32x32.size a ≤ S1x32x34x34.size a
  inb_S32x32x9_S32x32x1_0_0_2 : ∀ a, (![0, 0, 2] : Fin 3 → Nat) a + S32x32x1.size a ≤ S32x32x9.size a
  inb_S1x32x34x34_S1x32x32x32_0_0_1_2 : ∀ a, (![0, 0, 1, 2] : Fin 4 → Nat) a + S1x32x32x32.size a ≤ S1x32x34x34.size a
  inb_S32x32x9_S32x32x1_0_0_3 : ∀ a, (![0, 0, 3] : Fin 3 → Nat) a + S32x32x1.size a ≤ S32x32x9.size a
  inb_S1x32x34x34_S1x32x32x32_0_0_1_1 : ∀ a, (![0, 0, 1, 1] : Fin 4 → Nat) a + S1x32x32x32.size a ≤ S1x32x34x34.size a
  inb_S32x32x9_S32x32x1_0_0_4 : ∀ a, (![0, 0, 4] : Fin 3 → Nat) a + S32x32x1.size a ≤ S32x32x9.size a
  inb_S1x32x34x34_S1x32x32x32_0_0_1_0 : ∀ a, (![0, 0, 1, 0] : Fin 4 → Nat) a + S1x32x32x32.size a ≤ S1x32x34x34.size a
  inb_S32x32x9_S32x32x1_0_0_5 : ∀ a, (![0, 0, 5] : Fin 3 → Nat) a + S32x32x1.size a ≤ S32x32x9.size a
  inb_S1x32x34x34_S1x32x32x32_0_0_0_2 : ∀ a, (![0, 0, 0, 2] : Fin 4 → Nat) a + S1x32x32x32.size a ≤ S1x32x34x34.size a
  inb_S32x32x9_S32x32x1_0_0_6 : ∀ a, (![0, 0, 6] : Fin 3 → Nat) a + S32x32x1.size a ≤ S32x32x9.size a
  inb_S1x32x34x34_S1x32x32x32_0_0_0_1 : ∀ a, (![0, 0, 0, 1] : Fin 4 → Nat) a + S1x32x32x32.size a ≤ S1x32x34x34.size a
  inb_S32x32x9_S32x32x1_0_0_7 : ∀ a, (![0, 0, 7] : Fin 3 → Nat) a + S32x32x1.size a ≤ S32x32x9.size a
  inb_S1x32x34x34_S1x32x32x32_0_0_0_0 : ∀ a, (![0, 0, 0, 0] : Fin 4 → Nat) a + S1x32x32x32.size a ≤ S1x32x34x34.size a
  inb_S32x32x9_S32x32x1_0_0_8 : ∀ a, (![0, 0, 8] : Fin 3 → Nat) a + S32x32x1.size a ≤ S32x32x9.size a
  shapeCasts_S32x32x32x32_S1024x32x32 : S32x32x32x32.ShapeCasts S1024x32x32
  inb_S1x1024x32x32_S1x1024x32x32_0_0_0_0 : ∀ a, (![0, 0, 0, 0] : Fin 4 → Nat) a + S1x1024x32x32.size a ≤ S1x1024x32x32.size a
  h_S1x1024x32x32 : 0 < S1x1024x32x32.numel
  shapeCasts_S1x1024x32x32_S1024x32x32 : S1x1024x32x32.ShapeCasts S1024x32x32
  shapeCasts_S1024x32x32_S1x1024x32x32 : S1024x32x32.ShapeCasts S1x1024x32x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x34x34.size a ≤ S16x32x34x34.size a
  hwx0_0 : ∀ i : grid0.Coords, EltTy.bits .f32 = 32 ∨ (Rect.block (s := S16x32x34x34) S1x32x34x34.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32x9.size a ≤ S32x32x9.size a
  hwx0_1 : ∀ i : grid0.Coords, EltTy.bits .f32 = 32 ∨ (Rect.block (s := S32x32x9) S32x32x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x32x32.size a ≤ S16x1024x32x32.size a
  hwx0_2 : ∀ i : grid0.Coords, EltTy.bits .f32 = 32 ∨ (Rect.block (s := S16x1024x32x32) S1x1024x32x32.size (cc0_transform_2 i) (hinb0_2 i)).WholeWords (EltTy.packing .f32)

variable [Facts₀]

abbrev win0_0 : Pipeline.Window sig grid0 :=
  Pipeline.Window.ofSpec (Memref.whole main_v0) S1x32x34x34.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x32x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x32x32x32 : Shape := ⟨4, ![16, 32, 32, 32]⟩
abbrev S32x32x9 : Shape := ⟨3, ![32, 32, 9]⟩
abbrev S_ : Shape := ⟨0, ![]⟩
abbrev S16x32x34x34 : Shape := ⟨4, ![16, 32, 34, 34]⟩
abbrev S32x32x1 : Shape := ⟨3, ![32, 32, 1]⟩
abbrev S32x32 : Shape := ⟨2, ![32, 32]⟩
abbrev S16x1x32x32x32 : Shape := ⟨5, ![16, 1, 32, 32, 32]⟩
abbrev S1x32x32x1x1 : Shape := ⟨5, ![1, 32, 32, 1, 1]⟩
abbrev S16x32x32x32x32 : Shape := ⟨5, ![16, 32, 32, 32, 32]⟩
abbrev S16x1024x32x32 : Shape := ⟨4, ![16, 1024, 32, 32]⟩

abbrev nBuf : Space → Nat
  | .hbm => 95
  | .vmem => 0
  | .smem => 0
  | _ => 0

abbrev bufTy : (tb : Table) → Fin (tcTables nBuf tb) → BufTy
  | .hbm, ⟨0, _⟩ => ⟨S16x32x32x32, .f32⟩
  | .hbm, ⟨1, _⟩ => ⟨S32x32x9, .f32⟩
  | .hbm, ⟨2, _⟩ => ⟨S_, .i32⟩
  | .hbm, ⟨3, _⟩ => ⟨S_, .f32⟩
  | .hbm, ⟨4, _⟩ => ⟨S16x32x34x34, .f32⟩
  | .hbm, ⟨5, _⟩ => ⟨S16x32x32x32, .f32⟩
  | .hbm, ⟨6, _⟩ => ⟨S32x32x1, .f32⟩
  | .hbm, ⟨7, _⟩ => ⟨S32x32, .f32⟩
  | .hbm, ⟨8, _⟩ => ⟨S16x1x32x32x32, .f32⟩
  | .hbm, ⟨9, _⟩ => ⟨S1x32x32x1x1, .f32⟩
  | .hbm, ⟨10, _⟩ => ⟨S16x32x32x32x32, .f32⟩
  | .hbm, ⟨11, _⟩ => ⟨S16x32x32x32x32, .f32⟩
  | .hbm, ⟨12, _⟩ => ⟨S16x32x32x32x32, .f32⟩
  | .hbm, ⟨13, _⟩ => ⟨S16x32x32x32x32, .f32⟩
  | .hbm, ⟨14, _⟩ => ⟨S16x32x32x32, .f32⟩
  | .hbm, ⟨15, _⟩ => ⟨S32x32x1, .f32⟩
  | .hbm, ⟨16, _⟩ => ⟨S32x32, .f32⟩
  | .hbm, ⟨17, _⟩ => ⟨S16x1x32x32x32, .f32⟩
  | .hbm, ⟨18, _⟩ => ⟨S1x32x32x1x1, .f32⟩
  | .hbm, ⟨19, _⟩ => ⟨S16x32x32x32x32, .f32⟩
  | .hbm, ⟨20, _⟩ => ⟨S16x32x32x32x32, .f32⟩
  | .hbm, ⟨21, _⟩ => ⟨S16x32x32x32x32, .f32⟩
  | .hbm, ⟨22, _⟩ => ⟨S16x32x32x32x32, .f32⟩
  | .hbm, ⟨23, _⟩ => ⟨S16x32x32x32x32, .f32⟩
  | .hbm, ⟨24, _⟩ => ⟨S16x32x32x32, .f32⟩
  | .hbm, ⟨25, _⟩ => ⟨S32x32x1, .f32⟩
  | .hbm, ⟨26, _⟩ => ⟨S32x32, .f32⟩
  | .hbm, ⟨27, _⟩ => ⟨S16x1x32x32x32, .f32⟩
  | .hbm, ⟨28, _⟩ => ⟨S1x32x32x1x1, .f32⟩
  | .hbm, ⟨29, _⟩ => ⟨S16x32x32x32x32, .f32⟩
  | .hbm, ⟨30, _⟩ => ⟨S16x32x32x32x32, .f32⟩
  | .hbm, ⟨31, _⟩ => ⟨S16x32x32x32x32, .f32⟩
  | .hbm, ⟨32, _⟩ => ⟨S16x32x32x32x32, .f32⟩
  | .hbm, ⟨33, _⟩ => ⟨S16x32x32x32x32, .f32⟩
  | .hbm, ⟨34, _⟩ => ⟨S16x32x32x32, .f32⟩
  | .hbm, ⟨35, _⟩ => ⟨S32x32x1, .f32⟩
  | .hbm, ⟨36, _⟩ => ⟨S32x32, .f32⟩
  | .hbm, ⟨37, _⟩ => ⟨S16x1x32x32x32, .f32⟩
  | .hbm, ⟨38, _⟩ => ⟨S1x32x32x1x1, .f32⟩
  | .hbm, ⟨39, _⟩ => ⟨S16x32x32x32x32, .f32⟩
  | .hbm, ⟨40, _⟩ => ⟨S16x32x32x32x32, .f32⟩
  | .hbm, ⟨41, _⟩ => ⟨S16x32x32x32x32, .f32⟩
  | .hbm, ⟨42, _⟩ => ⟨S16x32x32x32x32, .f32⟩
  | .hbm, ⟨43, _⟩ => ⟨S16x32x32x32x32, .f32⟩
  | .hbm, ⟨44, _⟩ => ⟨S16x32x32x32, .f32⟩
  | .hbm, ⟨45, _⟩ => ⟨S32x32x1, .f32⟩
  | .hbm, ⟨46, _⟩ => ⟨S32x32, .f32⟩
  | .hbm, ⟨47, _⟩ => ⟨S16x1x32x32x32, .f32⟩
  | .hbm, ⟨48, _⟩ => ⟨S1x32x32x1x1, .f32⟩
  | .hbm, ⟨49, _⟩ => ⟨S16x32x32x32x32, .f32⟩
  | .hbm, ⟨50, _⟩ => ⟨S16x32x32x32x32, .f32⟩
  | .hbm, ⟨51, _⟩ => ⟨S16x32x32x32x32, .f32⟩
  | .hbm, ⟨52, _⟩ => ⟨S16x32x32x32x32, .f32⟩
  | .hbm, ⟨53, _⟩ => ⟨S16x32x32x32x32, .f32⟩
  | .hbm, ⟨54, _⟩ => ⟨S16x32x32x32, .f32⟩
  | .hbm, ⟨55, _⟩ => ⟨S32x32x1, .f32⟩
  | .hbm, ⟨56, _⟩ => ⟨S32x32, .f32⟩
  | .hbm, ⟨57, _⟩ => ⟨S16x1x32x32x32, .f32⟩
  | .hbm, ⟨58, _⟩ => ⟨S1x32x32x1x1, .f32⟩
  | .hbm, ⟨59, _⟩ => ⟨S16x32x32x32x32, .f32⟩
  | .hbm, ⟨60, _⟩ => ⟨S16x32x32x32x32, .f32⟩
  | .hbm, ⟨61, _⟩ => ⟨S16x32x32x32x32, .f32⟩
  | .hbm, ⟨62, _⟩ => ⟨S16x32x32x32x32, .f32⟩
  | .hbm, ⟨63, _⟩ => ⟨S16x32x32x32x32, .f32⟩
  | .hbm, ⟨64, _⟩ => ⟨S16x32x32x32, .f32⟩
  | .hbm, ⟨65, _⟩ => ⟨S32x32x1, .f32⟩
  | .hbm, ⟨66, _⟩ => ⟨S32x32, .f32⟩
  | .hbm, ⟨67, _⟩ => ⟨S16x1x32x32x32, .f32⟩
  | .hbm, ⟨68, _⟩ => ⟨S1x32x32x1x1, .f32⟩
  | .hbm, ⟨69, _⟩ => ⟨S16x32x32x32x32, .f32⟩
  | .hbm, ⟨70, _⟩ => ⟨S16x32x32x32x32, .f32⟩
  | .hbm, ⟨71, _⟩ => ⟨S16x32x32x32x32, .f32⟩
  | .hbm, ⟨72, _⟩ => ⟨S16x32x32x32x32, .f32⟩
  | .hbm, ⟨73, _⟩ => ⟨S16x32x32x32x32, .f32⟩
  | .hbm, ⟨74, _⟩ => ⟨S16x32x32x32, .f32⟩
  | .hbm, ⟨75, _⟩ => ⟨S32x32x1, .f32⟩
  | .hbm, ⟨76, _⟩ => ⟨S32x32, .f32⟩
  | .hbm, ⟨77, _⟩ => ⟨S16x1x32x32x32, .f32⟩
  | .hbm, ⟨78, _⟩ => ⟨S1x32x32x1x1, .f32⟩
  | .hbm, ⟨79, _⟩ => ⟨S16x32x32x32x32, .f32⟩
  | .hbm, ⟨80, _⟩ => ⟨S16x32x32x32x32, .f32⟩
  | .hbm, ⟨81, _⟩ => ⟨S16x32x32x32x32, .f32⟩
  | .hbm, ⟨82, _⟩ => ⟨S16x32x32x32x32, .f32⟩
  | .hbm, ⟨83, _⟩ => ⟨S16x32x32x32x32, .f32⟩
  | .hbm, ⟨84, _⟩ => ⟨S16x32x32x32, .f32⟩
  | .hbm, ⟨85, _⟩ => ⟨S32x32x1, .f32⟩
  | .hbm, ⟨86, _⟩ => ⟨S32x32, .f32⟩
  | .hbm, ⟨87, _⟩ => ⟨S16x1x32x32x32, .f32⟩
  | .hbm, ⟨88, _⟩ => ⟨S1x32x32x1x1, .f32⟩
  | .hbm, ⟨89, _⟩ => ⟨S16x32x32x32x32, .f32⟩
  | .hbm, ⟨90, _⟩ => ⟨S16x32x32x32x32, .f32⟩
  | .hbm, ⟨91, _⟩ => ⟨S16x32x32x32x32, .f32⟩
  | .hbm, ⟨92, _⟩ => ⟨S16x32x32x32x32, .f32⟩
  | .hbm, ⟨93, _⟩ => ⟨S16x32x32x32x32, .f32⟩
  | .hbm, ⟨94, _⟩ => ⟨S16x1024x32x32, .f32⟩
  | _, _ => ⟨S16x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩
abbrev main_v82 : Ref sig .tc := ⟨.hbm, 86, rfl⟩
abbrev main_v83 : Ref sig .tc := ⟨.hbm, 87, rfl⟩
abbrev main_v84 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev main_v88 : Ref sig .tc := ⟨.hbm, 92, rfl⟩
abbrev main_v89 : Ref sig .tc := ⟨.hbm, 93, rfl⟩
abbrev main_v90 : Ref sig .tc := ⟨.hbm, 94, rfl⟩

abbrev nD : Nat := 1
abbrev τ : Topo := Topo.v7x

variable {F : FTy → Type} [FloatOps F]

class Facts₀ : Prop where
  pads_S16x32x32x32_S16x32x34x34_000_000_110_110 : S16x32x32x32.Pads (![0, 0, 1, 1] : Fin 4 → Nat) ![0, 0, 1, 1] ![0, 0, 0, 0] S16x32x34x34
  h_S_ : 0 < S_.numel
  slices_S16x32x34x34_S16x32x32x32_0_0_2_2 : S16x32x34x34.Slices ![0, 0, 2, 2] S16x32x32x32
  slices_S32x32x9_S32x32x1_0_0_0 : S32x32x9.Slices ![0, 0, 0] S32x32x1
  shapeCasts_S32x32x1_S32x32 : S32x32x1.ShapeCasts S32x32
  bcast_S16x32x32x32_S16x1x32x32x32_0_2_3_4 : S16x32x32x32.BroadcastsInDim S16x1x32x32x32 (![0, 2, 3, 4] : Fin 4 → Fin S16x1x32x32x32.rank)
  bcast_S32x32_S1x32x32x1x1_1_2 : S32x32.BroadcastsInDim S1x32x32x1x1 (![1, 2] : Fin 2 → Fin S1x32x32x1x1.rank)
  bcast_S16x1x32x32x32_S16x32x32x32x32_0_1_2_3_4 : S16x1x32x32x32.BroadcastsInDim S16x32x32x32x32 (![0, 1, 2, 3, 4] : Fin 5 → Fin S16x32x32x32x32.rank)
  bcast_S1x32x32x1x1_S16x32x32x32x32_0_1_2_3_4 : S1x32x32x1x1.BroadcastsInDim S16x32x32x32x32 (![0, 1, 2, 3, 4] : Fin 5 → Fin S16x32x32x32x32.rank)
  slices_S16x32x34x34_S16x32x32x32_0_0_2_1 : S16x32x34x34.Slices ![0, 0, 2, 1] S16x32x32x32
  slices_S32x32x9_S32x32x1_0_0_1 : S32x32x9.Slices ![0, 0, 1] S32x32x1
  slices_S16x32x34x34_S16x32x32x32_0_0_2_0 : S16x32x34x34.Slices ![0, 0, 2, 0] S16x32x32x32
  slices_S32x32x9_S32x32x1_0_0_2 : S32x32x9.Slices ![0, 0, 2] S32x32x1
  slices_S16x32x34x34_S16x32x32x32_0_0_1_2 : S16x32x34x34.Slices ![0, 0, 1, 2] S16x32x32x32
  slices_S32x32x9_S32x32x1_0_0_3 : S32x32x9.Slices ![0, 0, 3] S32x32x1
  slices_S16x32x34x34_S16x32x32x32_0_0_1_1 : S16x32x34x34.Slices ![0, 0, 1, 1] S16x32x32x32
  slices_S32x32x9_S32x32x1_0_0_4 : S32x32x9.Slices ![0, 0, 4] S32x32x1
  slices_S16x32x34x34_S16x32x32x32_0_0_1_0 : S16x32x34x34.Slices ![0, 0, 1, 0] S16x32x32x32
  slices_S32x32x9_S32x32x1_0_0_5 : S32x32x9.Slices ![0, 0, 5] S32x32x1
  slices_S16x32x34x34_S16x32x32x32_0_0_0_2 : S16x32x34x34.Slices ![0, 0, 0, 2] S16x32x32x32
  slices_S32x32x9_S32x32x1_0_0_6 : S32x32x9.Slices ![0, 0, 6] S32x32x1
  slices_S16x32x34x34_S16x32x32x32_0_0_0_1 : S16x32x34x34.Slices ![0, 0, 0, 1] S16x32x32x32
  slices_S32x32x9_S32x32x1_0_0_7 : S32x32x9.Slices ![0, 0, 7] S32x32x1
  slices_S16x32x34x34_S16x32x32x32_0_0_0_0 : S16x32x34x34.Slices ![0, 0, 0, 0] S16x32x32x32
  slices_S32x32x9_S32x32x1_0_0_8 : S32x32x9.Slices ![0, 0, 8] S32x32x1
  shapeCasts_S16x32x32x32x32_S16x1024x32x32 : S16x32x32x32x32.ShapeCasts S16x1024x32x32

variable [Facts₀]

class Facts : Prop extends Facts₀ where

variable [Facts]
-- ==== Proof.ShiftMax.lean ====
/-
  The function both programs compute, stated once over literal shapes and importing neither program.

  Write `xp` for the zero-padded input, of shape [16, 32, 34, 34] (batch, channel, padded row, padded column), and `nb`
  for the codebook, of shape [32, 32, 9] (code, channel, shift). The result has shape [16, 1024, 32, 32]; its second
  coordinate `j` packs a code `j / 32` and a channel `j % 32`. At the index (b, j, h, w) the result is

      max over the nine shifts k of | xp[b, j % 32, h + dr k, w + dc k] - nb[j / 32, j % 32, k] |

  where the shifts are taken in the order (dr, dc) = (2,2), (2,1), (2,0), (1,2), (1,1), (1,0), (0,2), (0,1), (0,0) and the
  maximum is nested to the left in that order. Both programs nest it the same way, so no law of `max` is needed, and the
  padded array enters only as a variable: how the padding is made is the same term on both sides.
-/
import Idealize.ShloMosaic.PureOps

noncomputable section

namespace Cert.ShiftMax

open Idealize.ShloMosaic

/-- The padded input: batch, channel, padded row, padded column. -/
abbrev SPad : Shape := ⟨4, ![16, 32, 34, 34]⟩
/-- The codebook: code, channel, shift. -/
abbrev SCode : Shape := ⟨3, ![32, 32, 9]⟩
/-- The result: batch, code and channel packed, row, column. -/
abbrev SRes : Shape := ⟨4, ![16, 1024, 32, 32]⟩

variable {F : FTy → Type} [FloatOps F]

/-- Where the result index (b, j, h, w) reads the padded input under the shift with offsets (dr, dc):
    at (b, j % 32, dr + h, dc + w). -/
def padAt (dr dc : Nat) (hr : dr ≤ 2) (hc : dc ≤ 2) (i : SRes.Idx) : SPad.Idx := fun a => match a with
  | ⟨0, _⟩ => ⟨(i 0).val, (i 0).isLt⟩
  | ⟨1, _⟩ => ⟨(i 1).val % 32, Nat.mod_lt _ (by decide)⟩
  | ⟨2, _⟩ => ⟨dr + (i 2).val, by have h : (i 2).val < 32 := (i 2).isLt; show dr + (i 2).val < 34; omega⟩
  | ⟨3, _⟩ => ⟨dc + (i 3).val, by have h : (i 3).val < 32 := (i 3).isLt; show dc + (i 3).val < 34; omega⟩

/-- Where the result index (b, j, h, w) reads the codebook for shift `k`: at (j / 32, j % 32, k). -/
def codeAt (k : Nat) (hk : k < 9) (i : SRes.Idx) : SCode.Idx := fun a => match a with
  | ⟨0, _⟩ => ⟨(i 1).val / 32, by have h : (i 1).val < 1024 := (i 1).isLt; show (i 1).val / 32 < 32; omega⟩
  | ⟨1, _⟩ => ⟨(i 1).val % 32, Nat.mod_lt _ (by decide)⟩
  | ⟨2, _⟩ => ⟨k, hk⟩

/-- One shift's distance at a result index: | xp[b, j % 32, dr + h, dc + w] - nb[j / 32, j % 32, k] |. -/
def dist (xp : Vec F SPad .f32) (nb : Vec F SCode .f32) (dr dc k : Nat) (hr : dr ≤ 2) (hc : dc ≤ 2) (hk : k < 9)
    (i : SRes.Idx) : Elt F .f32 :=
  FloatOps.absf (FloatOps.subf (xp (padAt dr dc hr hc i)) (nb (codeAt k hk i)))

/-- The largest of the nine shifts' distances, nested to the left in the order the shifts are taken. -/
def G (xp : Vec F SPad .f32) (nb : Vec F SCode .f32) : Vec F SRes .f32 := fun i =>
  FloatOps.maximumf (FloatOps.maximumf (FloatOps.maximumf (FloatOps.maximumf (FloatOps.maximumf (FloatOps.maximumf
    (FloatOps.maximumf (FloatOps.maximumf
      (dist xp nb 2 2 0 (by decide) (by decide) (by decide) i)
      (dist xp nb 2 1 1 (by decide) (by decide) (by decide) i))
      (dist xp nb 2 0 2 (by decide) (by decide) (by decide) i))
      (dist xp nb 1 2 3 (by decide) (by decide) (by decide) i))
      (dist xp nb 1 1 4 (by decide) (by decide) (by decide) i))
      (dist xp nb 1 0 5 (by decide) (by decide) (by decide) i))
      (dist xp nb 0 2 6 (by decide) (by decide) (by decide) i))
      (dist xp nb 0 1 7 (by decide) (by decide) (by decide) i))
      (dist xp nb 0 0 8 (by decide) (by decide) (by decide) i)

/-- A distance changes with neither of its two arguments' names: equal arguments, equal distances. -/
theorem abs_sub_congr {p p' q q' : Elt F .f32} (hp : p = p') (hq : q = q') :
    FloatOps.absf (FloatOps.subf p q) = FloatOps.absf (FloatOps.subf p' q') := by rw [hp, hq]

/-- The left-nested maximum of nine values is the same for nine values equal to them one by one. -/
theorem max9_congr {a0 a1 a2 a3 a4 a5 a6 a7 a8 b0 b1 b2 b3 b4 b5 b6 b7 b8 : Elt F .f32}
    (h0 : a0 = b0) (h1 : a1 = b1) (h2 : a2 = b2) (h3 : a3 = b3) (h4 : a4 = b4) (h5 : a5 = b5) (h6 : a6 = b6)
    (h7 : a7 = b7) (h8 : a8 = b8) :
    FloatOps.maximumf (FloatOps.maximumf (FloatOps.maximumf (FloatOps.maximumf (FloatOps.maximumf (FloatOps.maximumf
      (FloatOps.maximumf (FloatOps.maximumf a0 a1) a2) a3) a4) a5) a6) a7) a8
    = FloatOps.maximumf (FloatOps.maximumf (FloatOps.maximumf (FloatOps.maximumf (FloatOps.maximumf (FloatOps.maximumf
      (FloatOps.maximumf (FloatOps.maximumf b0 b1) b2) b3) b4) b5) b6) b7) b8 := by
  rw [h0, h1, h2, h3, h4, h5, h6, h7, h8]

end Cert.ShiftMax

end
-- ==== Proof.KernelBlocks.lean ====
/-
  How the kernel's blocks sit in its arrays.

  The region is entered after the host has made the padded array, so the first window's array at entry is the padding
  of the first argument by zero read from an integer (`entry_pad`), and the second window's array is the codebook as
  launched. The grid has one axis of sixteen points, one per batch: at point `t` the first window's block is the slab
  [t, 0:32, 0:34, 0:34] of the padded array, the second window's block is the whole codebook at every point, and the
  output window's block is the slab [t, 0:1024, 0:32, 0:32] of the result (`idx_facts`, decided over the sixteen points).
  Hence an element of the first block at (0, c, r, s) is the padded array's element at (t, c, r, s) (`pad_read`), an
  element of the second block is the codebook's at the same index (`code_read`), and the sixteen output slabs tile the
  result: the index (b, j, h, w) lies in the slab of point `b` (`cover`).
-/
import proofs.«106829_j52905407152506_1_alg».proof.Proof.Gen.KernelIdeal.Frame
import proofs.«106829_j52905407152506_1_alg».proof.Proof.ShiftMax
import Idealize.ShloMosaic.Lib.Pipeline.Value
import Idealize.ShloMosaic.Lib.StableHlo.Run

noncomputable section

namespace Cert.ShiftMax.Ker

open Cert.KernelIdeal Cert.KernelIdeal.Gen Idealize.ShloMosaic Idealize.ShloMosaic.TcCoe Idealize.SL.Sem Cert.ShiftMax
open Idealize.ShloMosaic.Pipeline (Dat)

variable {F : FTy → Type} [FloatOps F]
variable (m : (ℓ : Loc nD τ sig) → Buf (Elt F) ℓ) (ρ : Dev nD → PrngReg)

/-- The zero the host pads with: the integer constant 0 converted to a float. -/
abbrev padZero : FVec F S_ .f32 := sitofp .f32 (constantI S_ 32 0#32)

/-- The first argument padded by one row and one column of that zero on each side of its last two axes. -/
abbrev padded (x : FVec F S16x32x32x32 .f32) : FVec F S16x32x34x34 .f32 :=
  pad S16x32x34x34 ![0, 0, 1, 1] ![0, 0, 1, 1] ![0, 0, 0, 0] x (padZero (F := F)) pads_S16x32x32x32_S16x32x34x34_000_000_110_110 h_S_

/-- WHAT THE REGION FINDS in the first window's array: the host's padding of the first argument as launched. -/
theorem entry_pad (c : Dev nD) :
    (V m c main_v0 : S16x32x34x34.Idx → Elt F .f32) = padded (F := F) (m ((c : Thread nD τ).loc main_arg0)) := by
  dsimp only [V]
  simp only [hostOps0, hostOps0_1, List.flatten_cons, List.flatten_nil, List.append_nil, List.cons_append, List.nil_append]
  after_results
  rfl

/-- The printed index maps over the sixteen grid points: the first and the output windows' blocks move along the batch
    axis with the point and sit at 0 on the other axes; the codebook's block never moves. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- An element of the first window's block at point `t` is the padded array's element the result index under the output
    block index `y` asks for under the shift (dr, dc), when the block is read at (0, y1 % 32, dr + y2, dc + y3). -/
theorem pad_read (c : Dev nD) (t : Fin cfg0.N) (y : S1x1024x32x32.Idx) (dr dc : Nat) (hr : dr ≤ 2) (hc : dc ≤ 2)
    (z : S1x32x34x34.Idx) (e1 : (z 1).val = 0 + 1 * ((y 1).val % 32)) (e2 : (z 2).val = dr + 1 * (y 2).val)
    (e3 : (z 3).val = dc + 1 * (y 3).val) :
    iblk m c 0 t z = V m c main_v0 (padAt dr dc hr hc (((cfg0.win 2).blk t).view.emb y)) := by
  obtain ⟨f0, f1, f2, f3, -, -, -, g0, g1, g2, g3⟩ := idx_facts t
  have hz0 : (z 0).val < 1 := (z 0).isLt
  have hy0 : (y 0).val < 1 := (y 0).isLt
  have hy1 : (y 1).val < 1024 := (y 1).isLt
  show V m c main_v0 (((cfg0.win 0).blk t).view.emb z) = V m c main_v0 _
  refine congrArg (V m c main_v0) ?_
  funext a; apply Fin.ext
  match a with
  | ⟨0, _⟩ => show win0_0.index t (0 : Fin 4) * 1 + 1 * (z 0).val = win0_2.index t (0 : Fin 4) * 1 + 1 * (y 0).val; omega
  | ⟨1, _⟩ => show win0_0.index t (1 : Fin 4) * 32 + 1 * (z 1).val = (win0_2.index t (1 : Fin 4) * 1024 + 1 * (y 1).val) % 32; omega
  | ⟨2, _⟩ => show win0_0.index t (2 : Fin 4) * 34 + 1 * (z 2).val = dr + (win0_2.index t (2 : Fin 4) * 32 + 1 * (y 2).val); omega
  | ⟨3, _⟩ => show win0_0.index t (3 : Fin 4) * 34 + 1 * (z 3).val = dc + (win0_2.index t (3 : Fin 4) * 32 + 1 * (y 3).val); omega

/-- An element of the codebook's block is the codebook's element the result index under `y` asks for at shift `k`, when
    the block is read at (y1 / 32, y1 % 32, k). -/
theorem code_read (c : Dev nD) (t : Fin cfg0.N) (y : S1x1024x32x32.Idx) (k : Nat) (hk : k < 9)
    (z : S32x32x9.Idx) (e0 : (z 0).val = 0 + 1 * ((y 1).val / 32)) (e1 : (z 1).val = 0 + 1 * ((y 1).val % 32))
    (e2 : (z 2).val = k + 1 * 0) :
    iblk m c 1 t z = V m c main_arg1 (codeAt k hk (((cfg0.win 2).blk t).view.emb y)) := by
  obtain ⟨-, -, -, -, f0, f1, f2, g0, g1, g2, g3⟩ := idx_facts t
  have hy1 : (y 1).val < 1024 := (y 1).isLt
  show V m c main_arg1 (((cfg0.win 1).blk t).view.emb z) = V m c main_arg1 _
  refine congrArg (V m c main_arg1) ?_
  funext a; apply Fin.ext
  match a with
  | ⟨0, _⟩ => show win0_1.index t (0 : Fin 3) * 32 + 1 * (z 0).val = (win0_2.index t (1 : Fin 4) * 1024 + 1 * (y 1).val) / 32; omega
  | ⟨1, _⟩ => show win0_1.index t (1 : Fin 3) * 32 + 1 * (z 1).val = (win0_2.index t (1 : Fin 4) * 1024 + 1 * (y 1).val) % 32; omega
  | ⟨2, _⟩ => show win0_1.index t (2 : Fin 3) * 9 + 1 * (z 2).val = k; omega

/-- An index of the result lies in point `t`'s output block iff each coordinate lies in the block's range on its axis. -/
theorem mem_blk (t : Fin cfg0.N) (i : S16x1024x32x32.Idx) :
    i ∈ ((cfg0.win 2).blk t).view.set ↔ ∀ a : Fin 4, win0_2.index t a * S1x1024x32x32.size a ≤ (i a).val
      ∧ (i a).val < win0_2.index t a * S1x1024x32x32.size a + S1x1024x32x32.size a := by
  show i ∈ ((View.whole main_v1).slice (win0_2.rect t)).set ↔ _
  rw [View.set_slice_whole, Rect.mem_set_unit]
  exact Iff.rfl

/-- THE SIXTEEN OUTPUT SLABS TILE THE RESULT: the index (b, j, h, w) lies in the block of the point `b`, which writes back. -/
theorem cover (i : S16x1024x32x32.Idx) :
    ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 32 := (i 2).isLt
  have hi3 : (i 3).val < 32 := (i 3).isLt
  have hN : (i 0).val < cfg0.N := by show (i 0).val < grid0.N; rw [N_0]; exact hi0
  refine ⟨⟨(i 0).val, hN⟩, flush0_2 _, ?_⟩
  obtain ⟨-, -, -, -, -, -, -, g0, g1, g2, g3⟩ := idx_facts ⟨(i 0).val, hN⟩
  have g0' : win0_2.index ⟨(i 0).val, hN⟩ (0 : Fin 4) = (i 0).val := g0
  rw [mem_blk]
  intro a
  match a with
  | ⟨0, _⟩ => show win0_2.index ⟨(i 0).val, hN⟩ (0 : Fin 4) * 1 ≤ (i 0).val ∧ (i 0).val < win0_2.index ⟨(i 0).val, hN⟩ (0 : Fin 4) * 1 + 1; omega
  | ⟨1, _⟩ => show win0_2.index ⟨(i 0).val, hN⟩ (1 : Fin 4) * 1024 ≤ (i 1).val ∧ (i 1).val < win0_2.index ⟨(i 0).val, hN⟩ (1 : Fin 4) * 1024 + 1024; omega
  | ⟨2, _⟩ => show win0_2.index ⟨(i 0).val, hN⟩ (2 : Fin 4) * 32 ≤ (i 2).val ∧ (i 2).val < win0_2.index ⟨(i 0).val, hN⟩ (2 : Fin 4) * 32 + 32; omega
  | ⟨3, _⟩ => show win0_2.index ⟨(i 0).val, hN⟩ (3 : Fin 4) * 32 ≤ (i 3).val ∧ (i 3).val < win0_2.index ⟨(i 0).val, hN⟩ (3 : Fin 4) * 32 + 32; omega

end Cert.ShiftMax.Ker

end
-- ==== Proof.KernelPayload.lean ====
/-
  What the kernel's body leaves in its output block, index by index.

  The body works in the shape [32, 32, 32, 32] (code, channel, row, column). For each shift it loads a [1, 32, 32, 32]
  slab of the padded block, re-lays it as [32, 32, 32] and back, and repeats it along the code axis; it loads one
  [32, 32, 1] column of the codebook, re-lays it as [32, 32] and then [32, 32, 1, 1], and repeats it along the row and column
  axes. So at (n, c, h, w) the repeated slab is the load at (0, c, h, w) (`slab_at`) and the repeated column is the load at
  (n, c, 0) (`col_at`), and the shift's distance there is | slab(0, c, h, w) - column(n, c, 0) | (`dist_at`). The nine
  distances are folded by `max`, nested to the left, the code and channel axes are merged, and the result is stored
  through the whole output block: at the block index (0, j, h, w) the block holds the fold at (j / 32, j % 32, h, w)
  (`out_at`).
-/
import proofs.«106829_j52905407152506_1_alg».proof.Proof.Gen.KernelIdeal.Frame
import proofs.«106829_j52905407152506_1_alg».proof.Proof.ShiftMax
import Idealize.ShloMosaic.Lib.Pipeline.Value

noncomputable section

namespace Cert.ShiftMax.Ker

open Cert.KernelIdeal Cert.KernelIdeal.Gen Idealize.ShloMosaic Idealize.ShloMosaic.TcCoe Cert.ShiftMax

variable {F : FTy → Type} [FloatOps F]

/-- (code, channel, row, column) in the body's working shape. -/
abbrev at4 (n c h w : Fin 32) : S32x32x32x32.Idx := fun a => match a with
  | ⟨0, _⟩ => ⟨n.val, n.isLt⟩ | ⟨1, _⟩ => ⟨c.val, c.isLt⟩ | ⟨2, _⟩ => ⟨h.val, h.isLt⟩ | ⟨3, _⟩ => ⟨w.val, w.isLt⟩
/-- (0, channel, row, column) in a loaded slab. -/
abbrev slabIx (c h w : Fin 32) : S1x32x32x32.Idx := fun a => match a with
  | ⟨0, _⟩ => ⟨0, Nat.one_pos⟩ | ⟨1, _⟩ => ⟨c.val, c.isLt⟩ | ⟨2, _⟩ => ⟨h.val, h.isLt⟩ | ⟨3, _⟩ => ⟨w.val, w.isLt⟩
/-- (channel, row, column) in a slab without its unit axis. -/
abbrev slab3 (c h w : Fin 32) : S32x32x32.Idx := fun a => match a with
  | ⟨0, _⟩ => ⟨c.val, c.isLt⟩ | ⟨1, _⟩ => ⟨h.val, h.isLt⟩ | ⟨2, _⟩ => ⟨w.val, w.isLt⟩
/-- (code, channel, 0) in a loaded column of the codebook. -/
abbrev colIx (n c : Fin 32) : S32x32x1.Idx := fun a => match a with
  | ⟨0, _⟩ => ⟨n.val, n.isLt⟩ | ⟨1, _⟩ => ⟨c.val, c.isLt⟩ | ⟨2, _⟩ => ⟨0, Nat.one_pos⟩
/-- (code, channel) in a column without its unit axis. -/
abbrev col2 (n c : Fin 32) : S32x32.Idx := fun a => match a with
  | ⟨0, _⟩ => ⟨n.val, n.isLt⟩ | ⟨1, _⟩ => ⟨c.val, c.isLt⟩
/-- (code, channel, 0, 0) in a column with two unit axes. -/
abbrev col4 (n c : Fin 32) : S32x32x1x1.Idx := fun a => match a with
  | ⟨0, _⟩ => ⟨n.val, n.isLt⟩ | ⟨1, _⟩ => ⟨c.val, c.isLt⟩ | ⟨2, _⟩ => ⟨0, Nat.one_pos⟩ | ⟨3, _⟩ => ⟨0, Nat.one_pos⟩

/-- A slab re-laid and repeated along the code axis, at (n, c, h, w), is the slab at (0, c, h, w). -/
theorem slab_at (P : Vec F S1x32x32x32 .f32) (n c h w : Fin 32) :
    broadcastTo S32x32x32x32 (shapeCast S1x32x32x32 (shapeCast S32x32x32 P shapeCasts_S1x32x32x32_S32x32x32)
      shapeCasts_S32x32x32_S1x32x32x32) broadcasts_S1x32x32x32_S32x32x32x32 (at4 n c h w) = P (slabIx c h w) := by
  refine (broadcastTo_apply _ _ (at4 n c h w) (slabIx c h w) (fun a => match a with
    | ⟨0, _⟩ => by show 0 = (if (1 : Nat) = 1 then 0 else n.val); rw [if_pos rfl]
    | ⟨1, _⟩ => by show c.val = (if (32 : Nat) = 1 then 0 else c.val); rw [if_neg (by decide)]
    | ⟨2, _⟩ => by show h.val = (if (32 : Nat) = 1 then 0 else h.val); rw [if_neg (by decide)]
    | ⟨3, _⟩ => by show w.val = (if (32 : Nat) = 1 then 0 else w.val); rw [if_neg (by decide)])).trans ?_
  refine (shapeCast_apply _ _ (slabIx c h w) (slab3 c h w) (by
    rw [Shape.rowMajor_val_three, Shape.rowMajor_val_four]
    show (c.val * 32 + h.val) * 32 + w.val = ((0 * 32 + c.val) * 32 + h.val) * 32 + w.val; omega)).trans ?_
  exact shapeCast_apply _ _ (slab3 c h w) (slabIx c h w) (by
    rw [Shape.rowMajor_val_four, Shape.rowMajor_val_three]
    show ((0 * 32 + c.val) * 32 + h.val) * 32 + w.val = (c.val * 32 + h.val) * 32 + w.val; omega)

/-- A column of the codebook re-laid and repeated along rows and columns, at (n, c, h, w), is the column at (n, c, 0). -/
theorem col_at (Q : Vec F S32x32x1 .f32) (n c h w : Fin 32) :
    broadcastTo S32x32x32x32 (shapeCast S32x32x1x1 (shapeCast S32x32 Q shapeCasts_S32x32x1_S32x32)
      shapeCasts_S32x32_S32x32x1x1) broadcasts_S32x32x1x1_S32x32x32x32 (at4 n c h w) = Q (colIx n c) := by
  refine (broadcastTo_apply _ _ (at4 n c h w) (col4 n c) (fun a => match a with
    | ⟨0, _⟩ => by show n.val = (if (32 : Nat) = 1 then 0 else n.val); rw [if_neg (by decide)]
    | ⟨1, _⟩ => by show c.val = (if (32 : Nat) = 1 then 0 else c.val); rw [if_neg (by decide)]
    | ⟨2, _⟩ => by show 0 = (if (1 : Nat) = 1 then 0 else h.val); rw [if_pos rfl]
    | ⟨3, _⟩ => by show 0 = (if (1 : Nat) = 1 then 0 else w.val); rw [if_pos rfl])).trans ?_
  refine (shapeCast_apply _ _ (col4 n c) (col2 n c) (by
    rw [Shape.rowMajor_val_two, Shape.rowMajor_val_four]
    show n.val * 32 + c.val = ((n.val * 32 + c.val) * 1 + 0) * 1 + 0; omega)).trans ?_
  exact shapeCast_apply _ _ (col2 n c) (colIx n c) (by
    rw [Shape.rowMajor_val_three, Shape.rowMajor_val_two]
    show (n.val * 32 + c.val) * 1 + 0 = n.val * 32 + c.val; omega)

/-- One shift's distance in the body, at (n, c, h, w): | slab(0, c, h, w) - column(n, c, 0) |. -/
theorem dist_at (P : Vec F S1x32x32x32 .f32) (Q : Vec F S32x32x1 .f32) (n c h w : Fin 32) :
    absf (subf
      (broadcastTo S32x32x32x32 (shapeCast S1x32x32x32 (shapeCast S32x32x32 P shapeCasts_S1x32x32x32_S32x32x32)
        shapeCasts_S32x32x32_S1x32x32x32) broadcasts_S1x32x32x32_S32x32x32x32)
      (broadcastTo S32x32x32x32 (shapeCast S32x32x1x1 (shapeCast S32x32 Q shapeCasts_S32x32x1_S32x32)
        shapeCasts_S32x32_S32x32x1x1) broadcasts_S32x32x1x1_S32x32x32x32)) (at4 n c h w)
      = FloatOps.absf (FloatOps.subf (P (slabIx c h w)) (Q (colIx n c))) :=
  abs_sub_congr (slab_at P n c h w) (col_at Q n c h w)

end Cert.ShiftMax.Ker

end
-- ==== Proof.KernelIsShiftMax.lean ====
/-
  The kernel's result array is `Cert.ShiftMax.G` of the padded input and the codebook.

  The body stores one value through its whole output block: the nine distances of `KernelPayload` folded by `max`, nested
  to the left, with the code and channel axes merged. At the block index (0, j, h, w) that is the fold at
  (j / 32, j % 32, h, w), each distance | slab k (0, j % 32, h, w) - column k (j / 32, j % 32, 0) | of the k-th loads
  (`out_at`). The k-th slab is loaded from the padded block at the offsets of the k-th shift and the k-th column from the
  codebook's block at shift k, so by the block reads of `KernelBlocks` point `t` writes back block `t` of `G` of the
  arrays the region finds (`flushed_eq`); the sixteen blocks tile the result, so after the run the result array is `G`
  of them (`final`), and they are the padding of the first argument and the second argument as launched (`run`).
-/
import proofs.«106829_j52905407152506_1_alg».proof.Proof.KernelBlocks
import proofs.«106829_j52905407152506_1_alg».proof.Proof.KernelPayload

noncomputable section

namespace Cert.ShiftMax.Ker

open Cert.KernelIdeal Cert.KernelIdeal.Gen Idealize.ShloMosaic Idealize.ShloMosaic.TcCoe Idealize.SL.Sem Cert.ShiftMax
open Idealize.ShloMosaic.Pipeline (Dat)

variable {F : FTy → Type} [FloatOps F]

/-- The code, the channel, the row and the column under the output block index (0, j, h, w): j / 32, j % 32, h, w. -/
abbrev codeOf (y : S1x1024x32x32.Idx) : Fin 32 :=
  ⟨(y 1).val / 32, by have h : (y 1).val < 1024 := (y 1).isLt; omega⟩
abbrev chanOf (y : S1x1024x32x32.Idx) : Fin 32 := ⟨(y 1).val % 32, Nat.mod_lt _ (by decide)⟩
abbrev rowOf (y : S1x1024x32x32.Idx) : Fin 32 := ⟨(y 2).val, (y 2).isLt⟩
abbrev colOf (y : S1x1024x32x32.Idx) : Fin 32 := ⟨(y 3).val, (y 3).isLt⟩
/-- (j, h, w) in the merged shape before the unit batch axis is put back. -/
abbrev merged (y : S1x1024x32x32.Idx) : S1024x32x32.Idx := fun a => match a with
  | ⟨0, _⟩ => ⟨(y 1).val, (y 1).isLt⟩ | ⟨1, _⟩ => ⟨(y 2).val, (y 2).isLt⟩ | ⟨2, _⟩ => ⟨(y 3).val, (y 3).isLt⟩

theorem zero4 : (![0, 0, 0, 0] : Fin 4 → Nat) = fun _ => 0 := funext fun a => by fin_cases a <;> rfl

/-- WHAT THE BODY LEAVES in the output block at (0, j, h, w): the left-nested maximum over the nine shifts of
    | slab k (0, j % 32, h, w) - column k (j / 32, j % 32, 0) |, slab k and column k the body's k-th loads. -/
theorem out_at (x0 : Vec F S1x32x34x34 .f32) (x1 : Vec F S32x32x9 .f32) (y : S1x1024x32x32.Idx) :
    out0_2 x0 x1 y =
      (FloatOps.maximumf (FloatOps.maximumf (FloatOps.maximumf (FloatOps.maximumf (FloatOps.maximumf (FloatOps.maximumf (FloatOps.maximumf (FloatOps.maximumf (FloatOps.absf (FloatOps.subf (View.ld x0 r0_0 (slabIx (chanOf y) (rowOf y) (colOf y))) (View.ld x1 r0_1 (colIx (codeOf y) (chanOf y)))))
        (FloatOps.absf (FloatOps.subf (View.ld x0 r0_2 (slabIx (chanOf y) (rowOf y) (colOf y))) (View.ld x1 r0_3 (colIx (codeOf y) (chanOf y))))))
        (FloatOps.absf (FloatOps.subf (View.ld x0 r0_4 (slabIx (chanOf y) (rowOf y) (colOf y))) (View.ld x1 r0_5 (colIx (codeOf y) (chanOf y))))))
        (FloatOps.absf (FloatOps.subf (View.ld x0 r0_6 (slabIx (chanOf y) (rowOf y) (colOf y))) (View.ld x1 r0_7 (colIx (codeOf y) (chanOf y))))))
        (FloatOps.absf (FloatOps.subf (View.ld x0 r0_8 (slabIx (chanOf y) (rowOf y) (colOf y))) (View.ld x1 r0_9 (colIx (codeOf y) (chanOf y))))))
        (FloatOps.absf (FloatOps.subf (View.ld x0 r0_10 (slabIx (chanOf y) (rowOf y) (colOf y))) (View.ld x1 r0_11 (colIx (codeOf y) (chanOf y))))))
        (FloatOps.absf (FloatOps.subf (View.ld x0 r0_12 (slabIx (chanOf y) (rowOf y) (colOf y))) (View.ld x1 r0_13 (colIx (codeOf y) (chanOf y))))))
        (FloatOps.absf (FloatOps.subf (View.ld x0 r0_14 (slabIx (chanOf y) (rowOf y) (colOf y))) (View.ld x1 r0_15 (colIx (codeOf y) (chanOf y))))))
        (FloatOps.absf (FloatOps.subf (View.ld x0 r0_16 (slabIx (chanOf y) (rowOf y) (colOf y))) (View.ld x1 r0_17 (colIx (codeOf y) (chanOf y)))))) := by
  have hy0 : (y 0).val < 1 := (y 0).isLt
  have hy1 : (y 1).val < 1024 := (y 1).isLt
  unfold out0_2
  rw [View.canon_unit_zero zero4]
  unfold k0_pay1 k0_pay4 k0_pay2 k0_pay3 k0_pay5 k0_pay6
  dsimp only
  refine (shapeCast_apply _ _ y (merged y) (by
    rw [Shape.rowMajor_val_three, Shape.rowMajor_val_four]
    show ((y 1).val * 32 + (y 2).val) * 32 + (y 3).val = (((y 0).val * 1024 + (y 1).val) * 32 + (y 2).val) * 32 + (y 3).val
    omega)).trans ?_
  refine (shapeCast_apply _ _ (merged y) (at4 (codeOf y) (chanOf y) (rowOf y) (colOf y)) (by
    rw [Shape.rowMajor_val_four, Shape.rowMajor_val_three]
    show (((y 1).val / 32 * 32 + (y 1).val % 32) * 32 + (y 2).val) * 32 + (y 3).val = ((y 1).val * 32 + (y 2).val) * 32 + (y 3).val
    omega)).trans ?_
  exact max9_congr
    (dist_at (View.ld x0 r0_0) (View.ld x1 r0_1) (codeOf y) (chanOf y) (rowOf y) (colOf y))
    (dist_at (View.ld x0 r0_2) (View.ld x1 r0_3) (codeOf y) (chanOf y) (rowOf y) (colOf y))
    (dist_at (View.ld x0 r0_4) (View.ld x1 r0_5) (codeOf y) (chanOf y) (rowOf y) (colOf y))
    (dist_at (View.ld x0 r0_6) (View.ld x1 r0_7) (codeOf y) (chanOf y) (rowOf y) (colOf y))
    (dist_at (View.ld x0 r0_8) (View.ld x1 r0_9) (codeOf y) (chanOf y) (rowOf y) (colOf y))
    (dist_at (View.ld x0 r0_10) (View.ld x1 r0_11) (codeOf y) (chanOf y) (rowOf y) (colOf y))
    (dist_at (View.ld x0 r0_12) (View.ld x1 r0_13) (codeOf y) (chanOf y) (rowOf y) (colOf y))
    (dist_at (View.ld x0 r0_14) (View.ld x1 r0_15) (codeOf y) (chanOf y) (rowOf y) (colOf y))
    (dist_at (View.ld x0 r0_16) (View.ld x1 r0_17) (codeOf y) (chanOf y) (rowOf y) (colOf y))

variable (m : (ℓ : Loc nD τ sig) → Buf (Elt F) ℓ) (ρ : Dev nD → PrngReg)

/-- WHAT POINT `t` WRITES BACK is block `t` of `G` of the padded array and the codebook as the region finds them. -/
theorem flushed_eq (c : Dev nD) (t : Fin cfg0.N) :
    (dats m 0 c).flushed 2 t = ((cfg0.win 2).blk t).view.read (Elt F) (G (V m c main_v0) (V m c main_arg1)) := by
  show (cfg0.win 2).cut (grid0.coords t) ((dats m 0 c).after 2 t) = _
  rw [after0_2]
  funext y
  show out0_2 (iblk m c 0 t) (iblk m c 1 t) y = G (V m c main_v0) (V m c main_arg1) (((cfg0.win 2).blk t).view.emb y)
  refine (out_at (iblk m c 0 t) (iblk m c 1 t) y).trans ?_
  exact max9_congr
    (abs_sub_congr
      (pad_read m c t y 2 2 (by decide) (by decide) (r0_0.emb (slabIx (chanOf y) (rowOf y) (colOf y))) rfl rfl rfl)
      (code_read m c t y 0 (by decide) (r0_1.emb (colIx (codeOf y) (chanOf y))) rfl rfl rfl))
    (abs_sub_congr
      (pad_read m c t y 2 1 (by decide) (by decide) (r0_2.emb (slabIx (chanOf y) (rowOf y) (colOf y))) rfl rfl rfl)
      (code_read m c t y 1 (by decide) (r0_3.emb (colIx (codeOf y) (chanOf y))) rfl rfl rfl))
    (abs_sub_congr
      (pad_read m c t y 2 0 (by decide) (by decide) (r0_4.emb (slabIx (chanOf y) (rowOf y) (colOf y))) rfl rfl rfl)
      (code_read m c t y 2 (by decide) (r0_5.emb (colIx (codeOf y) (chanOf y))) rfl rfl rfl))
    (abs_sub_congr
      (pad_read m c t y 1 2 (by decide) (by decide) (r0_6.emb (slabIx (chanOf y) (rowOf y) (colOf y))) rfl rfl rfl)
      (code_read m c t y 3 (by decide) (r0_7.emb (colIx (codeOf y) (chanOf y))) rfl rfl rfl))
    (abs_sub_congr
      (pad_read m c t y 1 1 (by decide) (by decide) (r0_8.emb (slabIx (chanOf y) (rowOf y) (colOf y))) rfl rfl rfl)
      (code_read m c t y 4 (by decide) (r0_9.emb (colIx (codeOf y) (chanOf y))) rfl rfl rfl))
    (abs_sub_congr
      (pad_read m c t y 1 0 (by decide) (by decide) (r0_10.emb (slabIx (chanOf y) (rowOf y) (colOf y))) rfl rfl rfl)
      (code_read m c t y 5 (by decide) (r0_11.emb (colIx (codeOf y) (chanOf y))) rfl rfl rfl))
    (abs_sub_congr
      (pad_read m c t y 0 2 (by decide) (by decide) (r0_12.emb (slabIx (chanOf y) (rowOf y) (colOf y))) rfl rfl rfl)
      (code_read m c t y 6 (by decide) (r0_13.emb (colIx (codeOf y) (chanOf y))) rfl rfl rfl))
    (abs_sub_congr
      (pad_read m c t y 0 1 (by decide) (by decide) (r0_14.emb (slabIx (chanOf y) (rowOf y) (colOf y))) rfl rfl rfl)
      (code_read m c t y 7 (by decide) (r0_15.emb (colIx (codeOf y) (chanOf y))) rfl rfl rfl))
    (abs_sub_congr
      (pad_read m c t y 0 0 (by decide) (by decide) (r0_16.emb (slabIx (chanOf y) (rowOf y) (colOf y))) rfl rfl rfl)
      (code_read m c t y 8 (by decide) (r0_17.emb (colIx (codeOf y) (chanOf y))) rfl rfl rfl))

/-- THE RESULT ARRAY after the run: `G` of the padded array and the codebook as the region finds them. -/
theorem final (c : Dev nD) : (dats m 0 c).arrAt 2 cfg0.N = G (V m c main_v0) (V m c main_arg1) :=
  (dats m 0 c).arrAt_eq_of_cover 2 (G (V m c main_v0) (V m c main_arg1)) (fun t _ => flushed_eq m c t) cover

/-- THE RUN: every weakly fair execution terminates with the result array at `G` of the first argument's padding and of
    the second argument, both arguments unchanged. -/
theorem run : θ_run defs (onTc (τ := τ) (main (F := F))) ⟨m, fun _ => 0, ρ⟩ fun r => ∀ c : Dev nD,
      r.2.mem ((c : Thread nD τ).loc main_v1)
        = G (padded (F := F) (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).1 2).trans ((final m c).trans (by rw [entry_pad, V_main_arg1])),
       ((h c).2 main_arg0 (Pipeline.mem_restRefs_of main_arg0 (by decide) (by decide))).trans (V_main_arg0 m c),
       ((h c).1 1).trans (((dats m 0 c).arrAt_in 1 rfl _).trans ((A_eq m c 1).trans (V_main_arg1 m c)))⟩)
    (run_main m ρ)

end Cert.ShiftMax.Ker

end
-- ==== Proof.RefIsShiftMax.lean ====
/-
  The reference's result is the function `Cert.ShiftMax.G` of its padded input and of the codebook.

  The reference slices the padded array once per shift, broadcasts the slice along a new code axis and the codebook's
  column for that shift along the batch, row and column axes, and takes | . - . | in the five-axis shape
  [16, 32, 32, 32, 32] (batch, code, channel, row, column); the nine distances are folded by `max`, nested to the left, and
  the code and channel axes are merged at the end. Reading each layout operation at an index: the result index (b, j, h, w)
  comes from the five-axis index (b, j / 32, j % 32, h, w); there the slice for the shift (dr, dc) reads the padded array
  at (b, j % 32, dr + h, dc + w), and the codebook's column k is read at (j / 32, j % 32, k). The host's absolute value is
  the same function as the vector one on the extended reals, so each distance is `ShiftMax.dist` and the fold is `G`.
-/
import proofs.«106829_j52905407152506_1_alg».proof.Proof.Gen.ReferenceIdeal.Read
import proofs.«106829_j52905407152506_1_alg».proof.Proof.ShiftMax
import Idealize.ShloMosaic.PureOps.Ideal

noncomputable section

namespace Cert.ShiftMax.Ref

open Cert.ReferenceIdeal Cert.ReferenceIdeal.Read Idealize.ShloMosaic Cert.ShiftMax

/-- Shift 0, offsets (2, 2): at the five-axis index under the result index (b, j, h, w) the reference's distance is
    | xp[b, j % 32, 2 + h, 2 + w] - nb[j / 32, j % 32, 0] |. -/
theorem shift0 (x0 : (⟨S16x32x32x32, .f32⟩ : BufTy).Contents (Elt Ideal)) (x1 : (⟨S32x32x9, .f32⟩ : BufTy).Contents (Elt Ideal))
    (i : S16x1024x32x32.Idx) :
    val_main_v9 (F := Ideal) x0 x1 (idx_main_v90 i)
      = dist (F := Ideal) (val_main_v0 (F := Ideal) x0) x1 2 2 0 (by decide) (by decide) (by decide) i := by
  have h0 : (i 0).val < 16 := (i 0).isLt
  have h1 : (i 1).val < 1024 := (i 1).isLt
  have h2 : (i 2).val < 32 := (i 2).isLt
  have h3 : (i 3).val < 32 := (i 3).isLt
  have ep : idx_main_v1 (idx_main_v4 (idx_main_v6 (idx_main_v90 i))) = padAt 2 2 (by decide) (by decide) i := by
    funext a; apply Fin.ext
    match a with
    | ⟨0, _⟩ => show ((((i 0).val * 1024 + (i 1).val) * 32 + (i 2).val) * 32 + (i 3).val) / 1048576 = (i 0).val; omega
    | ⟨1, _⟩ => show ((((i 0).val * 1024 + (i 1).val) * 32 + (i 2).val) * 32 + (i 3).val) / 1024 % 32 = (i 1).val % 32; omega
    | ⟨2, _⟩ => show 2 + ((((i 0).val * 1024 + (i 1).val) * 32 + (i 2).val) * 32 + (i 3).val) / 32 % 32 = 2 + (i 2).val; omega
    | ⟨3, _⟩ => show 2 + ((((i 0).val * 1024 + (i 1).val) * 32 + (i 2).val) * 32 + (i 3).val) % 32 = 2 + (i 3).val; omega
  have ec : idx_main_v2 (idx_main_v3 (idx_main_v5 (idx_main_v7 (idx_main_v90 i)))) = codeAt 0 (by decide) i := by
    funext a; apply Fin.ext
    match a with
    | ⟨0, _⟩ => show ((((((i 0).val * 1024 + (i 1).val) * 32 + (i 2).val) * 32 + (i 3).val) / 32768 % 32) * 32 + ((((i 0).val * 1024 + (i 1).val) * 32 + (i 2).val) * 32 + (i 3).val) / 1024 % 32) / 32 = (i 1).val / 32; omega
    | ⟨1, _⟩ => show ((((((i 0).val * 1024 + (i 1).val) * 32 + (i 2).val) * 32 + (i 3).val) / 32768 % 32) * 32 + ((((i 0).val * 1024 + (i 1).val) * 32 + (i 2).val) * 32 + (i 3).val) / 1024 % 32) / 1 % 32 = (i 1).val % 32; omega
    | ⟨2, _⟩ => show 0 = 0; omega
  rw [val_main_v9_apply, val_main_v8_apply, val_main_v6_apply, val_main_v4_apply, val_main_v1_apply,
    val_main_v7_apply, val_main_v5_apply, val_main_v3_apply, val_main_v2_apply, ep, ec]
  rfl

/-- Shift 1, offsets (2, 1): at the five-axis index under the result index (b, j, h, w) the reference's distance is
    | xp[b, j % 32, 2 + h, 1 + w] - nb[j / 32, j % 32, 1] |. -/
theorem shift1 (x0 : (⟨S16x32x32x32, .f32⟩ : BufTy).Contents (Elt Ideal)) (x1 : (⟨S32x32x9, .f32⟩ : BufTy).Contents (Elt Ideal))
    (i : S16x1024x32x32.Idx) :
    val_main_v18 (F := Ideal) x0 x1 (idx_main_v90 i)
      = dist (F := Ideal) (val_main_v0 (F := Ideal) x0) x1 2 1 1 (by decide) (by decide) (by decide) i := by
  have h0 : (i 0).val < 16 := (i 0).isLt
  have h1 : (i 1).val < 1024 := (i 1).isLt
  have h2 : (i 2).val < 32 := (i 2).isLt
  have h3 : (i 3).val < 32 := (i 3).isLt
  have ep : idx_main_v10 (idx_main_v13 (idx_main_v15 (idx_main_v90 i))) = padAt 2 1 (by decide) (by decide) i := by
    funext a; apply Fin.ext
    match a with
    | ⟨0, _⟩ => show ((((i 0).val * 1024 + (i 1).val) * 32 + (i 2).val) * 32 + (i 3).val) / 1048576 = (i 0).val; omega
    | ⟨1, _⟩ => show ((((i 0).val * 1024 + (i 1).val) * 32 + (i 2).val) * 32 + (i 3).val) / 1024 % 32 = (i 1).val % 32; omega
    | ⟨2, _⟩ => show 2 + ((((i 0).val * 1024 + (i 1).val) * 32 + (i 2).val) * 32 + (i 3).val) / 32 % 32 = 2 + (i 2).val; omega
    | ⟨3, _⟩ => show 1 + ((((i 0).val * 1024 + (i 1).val) * 32 + (i 2).val) * 32 + (i 3).val) % 32 = 1 + (i 3).val; omega
  have ec : idx_main_v11 (idx_main_v12 (idx_main_v14 (idx_main_v16 (idx_main_v90 i)))) = codeAt 1 (by decide) i := by
    funext a; apply Fin.ext
    match a with
    | ⟨0, _⟩ => show ((((((i 0).val * 1024 + (i 1).val) * 32 + (i 2).val) * 32 + (i 3).val) / 32768 % 32) * 32 + ((((i 0).val * 1024 + (i 1).val) * 32 + (i 2).val) * 32 + (i 3).val) / 1024 % 32) / 32 = (i 1).val / 32; omega
    | ⟨1, _⟩ => show ((((((i 0).val * 1024 + (i 1).val) * 32 + (i 2).val) * 32 + (i 3).val) / 32768 % 32) * 32 + ((((i 0).val * 1024 + (i 1).val) * 32 + (i 2).val) * 32 + (i 3).val) / 1024 % 32) / 1 % 32 = (i 1).val % 32; omega
    | ⟨2, _⟩ => show 1 + 0 = 1; omega
  rw [val_main_v18_apply, val_main_v17_apply, val_main_v15_apply, val_main_v13_apply, val_main_v10_apply,
    val_main_v16_apply, val_main_v14_apply, val_main_v12_apply, val_main_v11_apply, ep, ec]
  rfl

/-- Shift 2, offsets (2, 0): at the five-axis index under the result index (b, j, h, w) the reference's distance is
    | xp[b, j % 32, 2 + h, 0 + w] - nb[j / 32, j % 32, 2] |. -/
theorem shift2 (x0 : (⟨S16x32x32x32, .f32⟩ : BufTy).Contents (Elt Ideal)) (x1 : (⟨S32x32x9, .f32⟩ : BufTy).Contents (Elt Ideal))
    (i : S16x1024x32x32.Idx) :
    val_main_v28 (F := Ideal) x0 x1 (idx_main_v90 i)
      = dist (F := Ideal) (val_main_v0 (F := Ideal) x0) x1 2 0 2 (by decide) (by decide) (by decide) i := by
  have h0 : (i 0).val < 16 := (i 0).isLt
  have h1 : (i 1).val < 1024 := (i 1).isLt
  have h2 : (i 2).val < 32 := (i 2).isLt
  have h3 : (i 3).val < 32 := (i 3).isLt
  have ep : idx_main_v20 (idx_main_v23 (idx_main_v25 (idx_main_v90 i))) = padAt 2 0 (by decide) (by decide) i := by
    funext a; apply Fin.ext
    match a with
    | ⟨0, _⟩ => show ((((i 0).val * 1024 + (i 1).val) * 32 + (i 2).val) * 32 + (i 3).val) / 1048576 = (i 0).val; omega
    | ⟨1, _⟩ => show ((((i 0).val * 1024 + (i 1).val) * 32 + (i 2).val) * 32 + (i 3).val) / 1024 % 32 = (i 1).val % 32; omega
    | ⟨2, _⟩ => show 2 + ((((i 0).val * 1024 + (i 1).val) * 32 + (i 2).val) * 32 + (i 3).val) / 32 % 32 = 2 + (i 2).val; omega
    | ⟨3, _⟩ => show ((((i 0).val * 1024 + (i 1).val) * 32 + (i 2).val) * 32 + (i 3).val) % 32 = 0 + (i 3).val; omega
  have ec : idx_main_v21 (idx_main_v22 (idx_main_v24 (idx_main_v26 (idx_main_v90 i)))) = codeAt 2 (by decide) i := by
    funext a; apply Fin.ext
    match a with
    | ⟨0, _⟩ => show ((((((i 0).val * 1024 + (i 1).val) * 32 + (i 2).val) * 32 + (i 3).val) / 32768 % 32) * 32 + ((((i 0).val * 1024 + (i 1).val) * 32 + (i 2).val) * 32 + (i 3).val) / 1024 % 32) / 32 = (i 1).val / 32; omega
    | ⟨1, _⟩ => show ((((((i 0).val * 1024 + (i 1).val) * 32 + (i 2).val) * 32 + (i 3).val) / 32768 % 32) * 32 + ((((i 0).val * 1024 + (i 1).val) * 32 + (i 2).val) * 32 + (i 3).val) / 1024 % 32) / 1 % 32 = (i 1).val % 32; omega
    | ⟨2, _⟩ => show 2 + 0 = 2; omega
  rw [val_main_v28_apply, val_main_v27_apply, val_main_v25_apply, val_main_v23_apply, val_main_v20_apply,
    val_main_v26_apply, val_main_v24_apply, val_main_v22_apply, val_main_v21_apply, ep, ec]
  rfl

/-- Shift 3, offsets (1, 2): at the five-axis index under the result index (b, j, h, w) the reference's distance is
    | xp[b, j % 32, 1 + h, 2 + w] - nb[j / 32, j % 32, 3] |. -/
theorem shift3 (x0 : (⟨S16x32x32x32, .f32⟩ : BufTy).Contents (Elt Ideal)) (x1 : (⟨S32x32x9, .f32⟩ : BufTy).Contents (Elt Ideal))
    (i : S16x1024x32x32.Idx) :
    val_main_v38 (F := Ideal) x0 x1 (idx_main_v90 i)
      = dist (F := Ideal) (val_main_v0 (F := Ideal) x0) x1 1 2 3 (by decide) (by decide) (by decide) i := by
  have h0 : (i 0).val < 16 := (i 0).isLt
  have h1 : (i 1).val < 1024 := (i 1).isLt
  have h2 : (i 2).val < 32 := (i 2).isLt
  have h3 : (i 3).val < 32 := (i 3).isLt
  have ep : idx_main_v30 (idx_main_v33 (idx_main_v35 (idx_main_v90 i))) = padAt 1 2 (by decide) (by decide) i := by
    funext a; apply Fin.ext
    match a with
    | ⟨0, _⟩ => show ((((i 0).val * 1024 + (i 1).val) * 32 + (i 2).val) * 32 + (i 3).val) / 1048576 = (i 0).val; omega
    | ⟨1, _⟩ => show ((((i 0).val * 1024 + (i 1).val) * 32 + (i 2).val) * 32 + (i 3).val) / 1024 % 32 = (i 1).val % 32; omega
    | ⟨2, _⟩ => show 1 + ((((i 0).val * 1024 + (i 1).val) * 32 + (i 2).val) * 32 + (i 3).val) / 32 % 32 = 1 + (i 2).val; omega
    | ⟨3, _⟩ => show 2 + ((((i 0).val * 1024 + (i 1).val) * 32 + (i 2).val) * 32 + (i 3).val) % 32 = 2 + (i 3).val; omega
  have ec : idx_main_v31 (idx_main_v32 (idx_main_v34 (idx_main_v36 (idx_main_v90 i)))) = codeAt 3 (by decide) i := by
    funext a; apply Fin.ext
    match a with
    | ⟨0, _⟩ => show ((((((i 0).val * 1024 + (i 1).val) * 32 + (i 2).val) * 32 + (i 3).val) / 32768 % 32) * 32 + ((((i 0).val * 1024 + (i 1).val) * 32 + (i 2).val) * 32 + (i 3).val) / 1024 % 32) / 32 = (i 1).val / 32; omega
    | ⟨1, _⟩ => show ((((((i 0).val * 1024 + (i 1).val) * 32 + (i 2).val) * 32 + (i 3).val) / 32768 % 32) * 32 + ((((i 0).val * 1024 + (i 1).val) * 32 + (i 2).val) * 32 + (i 3).val) / 1024 % 32) / 1 % 32 = (i 1).val % 32; omega
    | ⟨2, _⟩ => show 3 + 0 = 3; omega
  rw [val_main_v38_apply, val_main_v37_apply, val_main_v35_apply, val_main_v33_apply, val_main_v30_apply,
    val_main_v36_apply, val_main_v34_apply, val_main_v32_apply, val_main_v31_apply, ep, ec]
  rfl

/-- Shift 4, offsets (1, 1): at the five-axis index under the result index (b, j, h, w) the reference's distance is
    | xp[b, j % 32, 1 + h, 1 + w] - nb[j / 32, j % 32, 4] |. -/
theorem shift4 (x0 : (⟨S16x32x32x32, .f32⟩ : BufTy).Contents (Elt Ideal)) (x1 : (⟨S32x32x9, .f32⟩ : BufTy).Contents (Elt Ideal))
    (i : S16x1024x32x32.Idx) :
    val_main_v48 (F := Ideal) x0 x1 (idx_main_v90 i)
      = dist (F := Ideal) (val_main_v0 (F := Ideal) x0) x1 1 1 4 (by decide) (by decide) (by decide) i := by
  have h0 : (i 0).val < 16 := (i 0).isLt
  have h1 : (i 1).val < 1024 := (i 1).isLt
  have h2 : (i 2).val < 32 := (i 2).isLt
  have h3 : (i 3).val < 32 := (i 3).isLt
  have ep : idx_main_v40 (idx_main_v43 (idx_main_v45 (idx_main_v90 i))) = padAt 1 1 (by decide) (by decide) i := by
    funext a; apply Fin.ext
    match a with
    | ⟨0, _⟩ => show ((((i 0).val * 1024 + (i 1).val) * 32 + (i 2).val) * 32 + (i 3).val) / 1048576 = (i 0).val; omega
    | ⟨1, _⟩ => show ((((i 0).val * 1024 + (i 1).val) * 32 + (i 2).val) * 32 + (i 3).val) / 1024 % 32 = (i 1).val % 32; omega
    | ⟨2, _⟩ => show 1 + ((((i 0).val * 1024 + (i 1).val) * 32 + (i 2).val) * 32 + (i 3).val) / 32 % 32 = 1 + (i 2).val; omega
    | ⟨3, _⟩ => show 1 + ((((i 0).val * 1024 + (i 1).val) * 32 + (i 2).val) * 32 + (i 3).val) % 32 = 1 + (i 3).val; omega
  have ec : idx_main_v41 (idx_main_v42 (idx_main_v44 (idx_main_v46 (idx_main_v90 i)))) = codeAt 4 (by decide) i := by
    funext a; apply Fin.ext
    match a with
    | ⟨0, _⟩ => show ((((((i 0).val * 1024 + (i 1).val) * 32 + (i 2).val) * 32 + (i 3).val) / 32768 % 32) * 32 + ((((i 0).val * 1024 + (i 1).val) * 32 + (i 2).val) * 32 + (i 3).val) / 1024 % 32) / 32 = (i 1).val / 32; omega
    | ⟨1, _⟩ => show ((((((i 0).val * 1024 + (i 1).val) * 32 + (i 2).val) * 32 + (i 3).val) / 32768 % 32) * 32 + ((((i 0).val * 1024 + (i 1).val) * 32 + (i 2).val) * 32 + (i 3).val) / 1024 % 32) / 1 % 32 = (i 1).val % 32; omega
    | ⟨2, _⟩ => show 4 + 0 = 4; omega
  rw [val_main_v48_apply, val_main_v47_apply, val_main_v45_apply, val_main_v43_apply, val_main_v40_apply,
    val_main_v46_apply, val_main_v44_apply, val_main_v42_apply, val_main_v41_apply, ep, ec]
  rfl

/-- Shift 5, offsets (1, 0): at the five-axis index under the result index (b, j, h, w) the reference's distance is
    | xp[b, j % 32, 1 + h, 0 + w] - nb[j / 32, j % 32, 5] |. -/
theorem shift5 (x0 : (⟨S16x32x32x32, .f32⟩ : BufTy).Contents (Elt Ideal)) (x1 : (⟨S32x32x9, .f32⟩ : BufTy).Contents (Elt Ideal))
    (i : S16x1024x32x32.Idx) :
    val_main_v58 (F := Ideal) x0 x1 (idx_main_v90 i)
      = dist (F := Ideal) (val_main_v0 (F := Ideal) x0) x1 1 0 5 (by decide) (by decide) (by decide) i := by
  have h0 : (i 0).val < 16 := (i 0).isLt
  have h1 : (i 1).val < 1024 := (i 1).isLt
  have h2 : (i 2).val < 32 := (i 2).isLt
  have h3 : (i 3).val < 32 := (i 3).isLt
  have ep : idx_main_v50 (idx_main_v53 (idx_main_v55 (idx_main_v90 i))) = padAt 1 0 (by decide) (by decide) i := by
    funext a; apply Fin.ext
    match a with
    | ⟨0, _⟩ => show ((((i 0).val * 1024 + (i 1).val) * 32 + (i 2).val) * 32 + (i 3).val) / 1048576 = (i 0).val; omega
    | ⟨1, _⟩ => show ((((i 0).val * 1024 + (i 1).val) * 32 + (i 2).val) * 32 + (i 3).val) / 1024 % 32 = (i 1).val % 32; omega
    | ⟨2, _⟩ => show 1 + ((((i 0).val * 1024 + (i 1).val) * 32 + (i 2).val) * 32 + (i 3).val) / 32 % 32 = 1 + (i 2).val; omega
    | ⟨3, _⟩ => show ((((i 0).val * 1024 + (i 1).val) * 32 + (i 2).val) * 32 + (i 3).val) % 32 = 0 + (i 3).val; omega
  have ec : idx_main_v51 (idx_main_v52 (idx_main_v54 (idx_main_v56 (idx_main_v90 i)))) = codeAt 5 (by decide) i := by
    funext a; apply Fin.ext
    match a with
    | ⟨0, _⟩ => show ((((((i 0).val * 1024 + (i 1).val) * 32 + (i 2).val) * 32 + (i 3).val) / 32768 % 32) * 32 + ((((i 0).val * 1024 + (i 1).val) * 32 + (i 2).val) * 32 + (i 3).val) / 1024 % 32) / 32 = (i 1).val / 32; omega
    | ⟨1, _⟩ => show ((((((i 0).val * 1024 + (i 1).val) * 32 + (i 2).val) * 32 + (i 3).val) / 32768 % 32) * 32 + ((((i 0).val * 1024 + (i 1).val) * 32 + (i 2).val) * 32 + (i 3).val) / 1024 % 32) / 1 % 32 = (i 1).val % 32; omega
    | ⟨2, _⟩ => show 5 + 0 = 5; omega
  rw [val_main_v58_apply, val_main_v57_apply, val_main_v55_apply, val_main_v53_apply, val_main_v50_apply,
    val_main_v56_apply, val_main_v54_apply, val_main_v52_apply, val_main_v51_apply, ep, ec]
  rfl

/-- Shift 6, offsets (0, 2): at the five-axis index under the result index (b, j, h, w) the reference's distance is
    | xp[b, j % 32, 0 + h, 2 + w] - nb[j / 32, j % 32, 6] |. -/
theorem shift6 (x0 : (⟨S16x32x32x32, .f32⟩ : BufTy).Contents (Elt Ideal)) (x1 : (⟨S32x32x9, .f32⟩ : BufTy).Contents (Elt Ideal))
    (i : S16x1024x32x32.Idx) :
    val_main_v68 (F := Ideal) x0 x1 (idx_main_v90 i)
      = dist (F := Ideal) (val_main_v0 (F := Ideal) x0) x1 0 2 6 (by decide) (by decide) (by decide) i := by
  have h0 : (i 0).val < 16 := (i 0).isLt
  have h1 : (i 1).val < 1024 := (i 1).isLt
  have h2 : (i 2).val < 32 := (i 2).isLt
  have h3 : (i 3).val < 32 := (i 3).isLt
  have ep : idx_main_v60 (idx_main_v63 (idx_main_v65 (idx_main_v90 i))) = padAt 0 2 (by decide) (by decide) i := by
    funext a; apply Fin.ext
    match a with
    | ⟨0, _⟩ => show ((((i 0).val * 1024 + (i 1).val) * 32 + (i 2).val) * 32 + (i 3).val) / 1048576 = (i 0).val; omega
    | ⟨1, _⟩ => show ((((i 0).val * 1024 + (i 1).val) * 32 + (i 2).val) * 32 + (i 3).val) / 1024 % 32 = (i 1).val % 32; omega
    | ⟨2, _⟩ => show ((((i 0).val * 1024 + (i 1).val) * 32 + (i 2).val) * 32 + (i 3).val) / 32 % 32 = 0 + (i 2).val; omega
    | ⟨3, _⟩ => show 2 + ((((i 0).val * 1024 + (i 1).val) * 32 + (i 2).val) * 32 + (i 3).val) % 32 = 2 + (i 3).val; omega
  have ec : idx_main_v61 (idx_main_v62 (idx_main_v64 (idx_main_v66 (idx_main_v90 i)))) = codeAt 6 (by decide) i := by
    funext a; apply Fin.ext
    match a with
    | ⟨0, _⟩ => show ((((((i 0).val * 1024 + (i 1).val) * 32 + (i 2).val) * 32 + (i 3).val) / 32768 % 32) * 32 + ((((i 0).val * 1024 + (i 1).val) * 32 + (i 2).val) * 32 + (i 3).val) / 1024 % 32) / 32 = (i 1).val / 32; omega
    | ⟨1, _⟩ => show ((((((i 0).val * 1024 + (i 1).val) * 32 + (i 2).val) * 32 + (i 3).val) / 32768 % 32) * 32 + ((((i 0).val * 1024 + (i 1).val) * 32 + (i 2).val) * 32 + (i 3).val) / 1024 % 32) / 1 % 32 = (i 1).val % 32; omega
    | ⟨2, _⟩ => show 6 + 0 = 6; omega
  rw [val_main_v68_apply, val_main_v67_apply, val_main_v65_apply, val_main_v63_apply, val_main_v60_apply,
    val_main_v66_apply, val_main_v64_apply, val_main_v62_apply, val_main_v61_apply, ep, ec]
  rfl

/-- Shift 7, offsets (0, 1): at the five-axis index under the result index (b, j, h, w) the reference's distance is
    | xp[b, j % 32, 0 + h, 1 + w] - nb[j / 32, j % 32, 7] |. -/
theorem shift7 (x0 : (⟨S16x32x32x32, .f32⟩ : BufTy).Contents (Elt Ideal)) (x1 : (⟨S32x32x9, .f32⟩ : BufTy).Contents (Elt Ideal))
    (i : S16x1024x32x32.Idx) :
    val_main_v78 (F := Ideal) x0 x1 (idx_main_v90 i)
      = dist (F := Ideal) (val_main_v0 (F := Ideal) x0) x1 0 1 7 (by decide) (by decide) (by decide) i := by
  have h0 : (i 0).val < 16 := (i 0).isLt
  have h1 : (i 1).val < 1024 := (i 1).isLt
  have h2 : (i 2).val < 32 := (i 2).isLt
  have h3 : (i 3).val < 32 := (i 3).isLt
  have ep : idx_main_v70 (idx_main_v73 (idx_main_v75 (idx_main_v90 i))) = padAt 0 1 (by decide) (by decide) i := by
    funext a; apply Fin.ext
    match a with
    | ⟨0, _⟩ => show ((((i 0).val * 1024 + (i 1).val) * 32 + (i 2).val) * 32 + (i 3).val) / 1048576 = (i 0).val; omega
    | ⟨1, _⟩ => show ((((i 0).val * 1024 + (i 1).val) * 32 + (i 2).val) * 32 + (i 3).val) / 1024 % 32 = (i 1).val % 32; omega
    | ⟨2, _⟩ => show ((((i 0).val * 1024 + (i 1).val) * 32 + (i 2).val) * 32 + (i 3).val) / 32 % 32 = 0 + (i 2).val; omega
    | ⟨3, _⟩ => show 1 + ((((i 0).val * 1024 + (i 1).val) * 32 + (i 2).val) * 32 + (i 3).val) % 32 = 1 + (i 3).val; omega
  have ec : idx_main_v71 (idx_main_v72 (idx_main_v74 (idx_main_v76 (idx_main_v90 i)))) = codeAt 7 (by decide) i := by
    funext a; apply Fin.ext
    match a with
    | ⟨0, _⟩ => show ((((((i 0).val * 1024 + (i 1).val) * 32 + (i 2).val) * 32 + (i 3).val) / 32768 % 32) * 32 + ((((i 0).val * 1024 + (i 1).val) * 32 + (i 2).val) * 32 + (i 3).val) / 1024 % 32) / 32 = (i 1).val / 32; omega
    | ⟨1, _⟩ => show ((((((i 0).val * 1024 + (i 1).val) * 32 + (i 2).val) * 32 + (i 3).val) / 32768 % 32) * 32 + ((((i 0).val * 1024 + (i 1).val) * 32 + (i 2).val) * 32 + (i 3).val) / 1024 % 32) / 1 % 32 = (i 1).val % 32; omega
    | ⟨2, _⟩ => show 7 + 0 = 7; omega
  rw [val_main_v78_apply, val_main_v77_apply, val_main_v75_apply, val_main_v73_apply, val_main_v70_apply,
    val_main_v76_apply, val_main_v74_apply, val_main_v72_apply, val_main_v71_apply, ep, ec]
  rfl

/-- Shift 8, offsets (0, 0): at the five-axis index under the result index (b, j, h, w) the reference's distance is
    | xp[b, j % 32, 0 + h, 0 + w] - nb[j / 32, j % 32, 8] |. -/
theorem shift8 (x0 : (⟨S16x32x32x32, .f32⟩ : BufTy).Contents (Elt Ideal)) (x1 : (⟨S32x32x9, .f32⟩ : BufTy).Contents (Elt Ideal))
    (i : S16x1024x32x32.Idx) :
    val_main_v88 (F := Ideal) x0 x1 (idx_main_v90 i)
      = dist (F := Ideal) (val_main_v0 (F := Ideal) x0) x1 0 0 8 (by decide) (by decide) (by decide) i := by
  have h0 : (i 0).val < 16 := (i 0).isLt
  have h1 : (i 1).val < 1024 := (i 1).isLt
  have h2 : (i 2).val < 32 := (i 2).isLt
  have h3 : (i 3).val < 32 := (i 3).isLt
  have ep : idx_main_v80 (idx_main_v83 (idx_main_v85 (idx_main_v90 i))) = padAt 0 0 (by decide) (by decide) i := by
    funext a; apply Fin.ext
    match a with
    | ⟨0, _⟩ => show ((((i 0).val * 1024 + (i 1).val) * 32 + (i 2).val) * 32 + (i 3).val) / 1048576 = (i 0).val; omega
    | ⟨1, _⟩ => show ((((i 0).val * 1024 + (i 1).val) * 32 + (i 2).val) * 32 + (i 3).val) / 1024 % 32 = (i 1).val % 32; omega
    | ⟨2, _⟩ => show ((((i 0).val * 1024 + (i 1).val) * 32 + (i 2).val) * 32 + (i 3).val) / 32 % 32 = 0 + (i 2).val; omega
    | ⟨3, _⟩ => show ((((i 0).val * 1024 + (i 1).val) * 32 + (i 2).val) * 32 + (i 3).val) % 32 = 0 + (i 3).val; omega
  have ec : idx_main_v81 (idx_main_v82 (idx_main_v84 (idx_main_v86 (idx_main_v90 i)))) = codeAt 8 (by decide) i := by
    funext a; apply Fin.ext
    match a with
    | ⟨0, _⟩ => show ((((((i 0).val * 1024 + (i 1).val) * 32 + (i 2).val) * 32 + (i 3).val) / 32768 % 32) * 32 + ((((i 0).val * 1024 + (i 1).val) * 32 + (i 2).val) * 32 + (i 3).val) / 1024 % 32) / 32 = (i 1).val / 32; omega
    | ⟨1, _⟩ => show ((((((i 0).val * 1024 + (i 1).val) * 32 + (i 2).val) * 32 + (i 3).val) / 32768 % 32) * 32 + ((((i 0).val * 1024 + (i 1).val) * 32 + (i 2).val) * 32 + (i 3).val) / 1024 % 32) / 1 % 32 = (i 1).val % 32; omega
    | ⟨2, _⟩ => show 8 + 0 = 8; omega
  rw [val_main_v88_apply, val_main_v87_apply, val_main_v85_apply, val_main_v83_apply, val_main_v80_apply,
    val_main_v86_apply, val_main_v84_apply, val_main_v82_apply, val_main_v81_apply, ep, ec]
  rfl

/-- THE REFERENCE IS `G`: the merged result, index by index, is the left-nested maximum of the nine shifts' distances of the
    padded input and the codebook. -/
theorem result_eq (x0 : (⟨S16x32x32x32, .f32⟩ : BufTy).Contents (Elt Ideal)) (x1 : (⟨S32x32x9, .f32⟩ : BufTy).Contents (Elt Ideal)) :
    val_main_v90 (F := Ideal) x0 x1 = G (F := Ideal) (val_main_v0 (F := Ideal) x0) x1 := by
  funext i
  rw [val_main_v90_apply, val_main_v89_apply, val_main_v79_apply, val_main_v69_apply, val_main_v59_apply, val_main_v49_apply,
    val_main_v39_apply, val_main_v29_apply, val_main_v19_apply,
    shift0, shift1, shift2, shift3, shift4, shift5, shift6, shift7, shift8]
  rfl

end Cert.ShiftMax.Ref

end
-- ==== Proof.lean ====
/-
  The kernel and its reference compute one function.

  The input `x` has shape [16, 32, 32, 32] (batch, channel, row, column) and the codebook `nb` shape [32, 32, 9]
  (code, channel, shift). Both programs first pad `x` with one row and one column of zero on each side of its last two
  axes, the zero being the integer 0 converted to a float; write `xp` for that padded array. The result, of shape
  [16, 1024, 32, 32], is at (b, j, h, w)

      max over the nine shifts k of | xp[b, j % 32, h + dr k, w + dc k] - nb[j / 32, j % 32, k] |,

  the shifts in the order (dr, dc) = (2,2), (2,1), (2,0), (1,2), (1,1), (1,0), (0,2), (0,1), (0,0), the maximum nested to
  the left in that order (`Cert.ShiftMax.G`, Proof/ShiftMax.lean).

  The reference computes it on the whole arrays in the five-axis shape (batch, code, channel, row, column) and merges
  code and channel at the end (Proof/RefIsShiftMax.lean). The kernel computes it one batch at a time: grid point `t`
  holds the padded slab of batch `t` and the whole codebook, works in the shape (code, channel, row, column), and writes
  the slab [t, 0:1024, 0:32, 0:32] of the result; the sixteen slabs tile it (Proof/KernelPayload.lean,
  Proof/KernelBlocks.lean, Proof/KernelIsShiftMax.lean). Subtraction, absolute value and maximum are taken in the same
  order on both sides, and the host's absolute value is the vector one on the extended reals, so the two results are
  equal term by term: no law of the extended reals is used and the inputs' finiteness is not needed. The padded array
  enters as a variable on both sides: the two programs build it by the same term.

  The three frames: the two kernels' are their generated frame certificates; the reference has no kernel, and its frame
  is its run with the result dropped. The idealization rewrote no operation, so there is nothing to preserve.
-/
import proofs.«106829_j52905407152506_1_alg».proof.Defs
import proofs.«106829_j52905407152506_1_alg».proof.Proof.Gen.Kernel
import proofs.«106829_j52905407152506_1_alg».proof.Proof.Gen.Kernel.Skeleton
import proofs.«106829_j52905407152506_1_alg».proof.Proof.Gen.Kernel.Launch
import proofs.«106829_j52905407152506_1_alg».proof.Proof.Gen.Kernel.Points
import proofs.«106829_j52905407152506_1_alg».proof.Proof.Gen.Kernel.Frame
import proofs.«106829_j52905407152506_1_alg».proof.Proof.Gen.KernelIdeal
import proofs.«106829_j52905407152506_1_alg».proof.Proof.Gen.KernelIdeal.Skeleton
import proofs.«106829_j52905407152506_1_alg».proof.Proof.Gen.KernelIdeal.Launch
import proofs.«106829_j52905407152506_1_alg».proof.Proof.Gen.KernelIdeal.Points
import proofs.«106829_j52905407152506_1_alg».proof.Proof.Gen.KernelIdeal.Frame
import proofs.«106829_j52905407152506_1_alg».proof.Proof.Gen.ReferenceIdeal
import proofs.«106829_j52905407152506_1_alg».proof.Proof.Gen.Pre_finite_inputs
import proofs.«106829_j52905407152506_1_alg».proof.Proof.Gen.ReferenceIdeal.Run
import proofs.«106829_j52905407152506_1_alg».proof.Proof.Gen.ReferenceIdeal.Read
import proofs.«106829_j52905407152506_1_alg».proof.Proof.KernelIsShiftMax
import proofs.«106829_j52905407152506_1_alg».proof.Proof.RefIsShiftMax
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run leaves its arguments unchanged: its run's post without the result. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- From memories agreeing on the arguments, the kernel's result array ends at `G` of the first argument's padding and the
    second argument (its run), and the reference's at the same function of its own arguments (its run, read operation by
    operation), which are the kernel's. -/
theorem algebraic : Cert.algebraic_KernelIdeal_ReferenceIdeal := by
  intro m ρ m' ρ' _ hagree
  refine ⟨fun c => Cert.ShiftMax.G (F := Ideal)
      (Cert.ShiftMax.Ker.padded (F := Ideal) (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.ShiftMax.Ker.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, Cert.ShiftMax.Ref.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
